-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1200000 : Shape := ⟨1, ![1200000]⟩
abbrev S100000x64 : Shape := ⟨2, ![100000, 64]⟩
abbrev S1200000x64 : Shape := ⟨2, ![1200000, 64]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000x64 : S_.BroadcastsInDim S1200000x64 (![] : Fin 0 → Fin S1200000x64.rank)
  reducesTo_S1200000x64_S_d0_1 : S1200000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x64 .f32) (main_arg15 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : IVec S1200000 32) (main_arg1 : IVec S1200000 32) (main_arg2 : FVec F S100000x64 .f32) (main_arg3 : FVec F S1200000x64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) : IVec S_ 1 :=
  let main_v0 : FVec F S100000x64 .f32 := Host.absf main_arg2
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000x64 .f32 := Host.absf main_arg3
  let main_cst_0 : FVec F S_ .f32 := constant S_ .f32 0x7F800000#32
  let main_v5 : FVec F S1200000x64 .f32 := broadcastInDim S1200000x64 ![] bcast_S_S1200000x64 main_cst_0
  let main_v6 : IVec S1200000x64 1 := cmpf .olt main_v4 main_v5
  let main_c_1 : IVec S_ 1 := constantI S_ 1 1#1
  let main_v7 : IVec S_ 1 := (fun x v => Host.reduce IntOp.andi x v reducesTo_S1200000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S1200000 : Shape := ⟨1, ![1200000]⟩
abbrev S100000x64 : Shape := ⟨2, ![100000, 64]⟩
abbrev S1200000x64 : Shape := ⟨2, ![1200000, 64]⟩
abbrev S64x64 : Shape := ⟨2, ![64, 64]⟩
abbrev S64 : Shape := ⟨1, ![64]⟩
abbrev S1x64 : Shape := ⟨2, ![1, 64]⟩
abbrev S10000x64 : Shape := ⟨2, ![10000, 64]⟩
abbrev S_ : Shape := ⟨0, ![]⟩
abbrev S1200000x1 : Shape := ⟨2, ![1200000, 1]⟩
abbrev S8000x64 : Shape := ⟨2, ![8000, 64]⟩

abbrev nBuf : Space → Nat
  | .hbm => 46
  | .vmem => 24
  | .smem => 0
  | _ => 0

abbrev bufTy : (tb : Table) → Fin (tcTables nBuf tb) → BufTy
  | .hbm, ⟨0, _⟩ => ⟨S1200000, .i32⟩
  | .hbm, ⟨1, _⟩ => ⟨S1200000, .i32⟩
  | .hbm, ⟨2, _⟩ => ⟨S100000x64, .f32⟩
  | .hbm, ⟨3, _⟩ => ⟨S1200000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S1x64, .f32⟩
  | .hbm, ⟨17, _⟩ => ⟨S1x64, .f32⟩
  | .hbm, ⟨18, _⟩ => ⟨S100000x64, .f32⟩
  | .hbm, ⟨19, _⟩ => ⟨S_, .i32⟩
  | .hbm, ⟨20, _⟩ => ⟨S1200000, .i32⟩
  | .hbm, ⟨21, _⟩ => ⟨S1200000, .i1⟩
  | .hbm, ⟨22, _⟩ => ⟨S_, .i32⟩
  | .hbm, ⟨23, _⟩ => ⟨S1200000, .i32⟩
  | .hbm, ⟨24, _⟩ => ⟨S1200000, .i32⟩
  | .hbm, ⟨25, _⟩ => ⟨S1200000, .i32⟩
  | .hbm, ⟨26, _⟩ => ⟨S1200000x1, .i32⟩
  | .hbm, ⟨27, _⟩ => ⟨S1200000x64, .f32⟩
  | .hbm, ⟨28, _⟩ => ⟨S_, .i32⟩
  | .hbm, ⟨29, _⟩ => ⟨S1200000, .i32⟩
  | .hbm, ⟨30, _⟩ => ⟨S1200000, .i1⟩
  | .hbm, ⟨31, _⟩ => ⟨S_, .i32⟩
  | .hbm, ⟨32, _⟩ => ⟨S1200000, .i32⟩
  | .hbm, ⟨33, _⟩ => ⟨S1200000, .i32⟩
  | .hbm, ⟨34, _⟩ => ⟨S1200000, .i32⟩
  | .hbm, ⟨35, _⟩ => ⟨S1200000x1, .i32⟩
  | .hbm, ⟨36, _⟩ => ⟨S1200000x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S1200000x64, .f32⟩
  | .hbm, ⟨42, _⟩ => ⟨S_, .f32⟩
  | .hbm, ⟨43, _⟩ => ⟨S100000x64, .f32⟩
  | .hbm, ⟨44, _⟩ => ⟨S1200000x1, .i32⟩
  | .hbm, ⟨45, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | .local _ .vmem, ⟨12, _⟩ => ⟨S8000x64, .f32⟩
  | .local _ .vmem, ⟨13, _⟩ => ⟨S8000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S8000x64, .f32⟩
  | .local _ .vmem, ⟨23, _⟩ => ⟨S8000x64, .f32⟩
  | _, _ => ⟨S1200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg11_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem11_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![150], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S8000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S1200000 : S_.BroadcastsInDim S1200000 (![] : Fin 0 → Fin S1200000.rank)
  bcast_S1200000_S1200000x1_0 : S1200000.BroadcastsInDim S1200000x1 (![0] : Fin 1 → Fin S1200000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  broadcasts_S1x64_S8000x64 : S1x64.Broadcasts S8000x64
  bcast_S_S100000x64 : S_.BroadcastsInDim S100000x64 (![] : Fin 0 → Fin S100000x64.rank)
  dot_S10000x64_S64x64_S10000x64_1_0_0_1_n_n_wf : DotDims.WF S10000x64 S64x64 S10000x64 [1] [0] [0] [1] [] []
  gather_S100000x64_S1200000x1_S1200000x64_1_0_n_n_0_1_164_wf : GatherDims.WF S100000x64 S1200000x1 S1200000x64 [1] [0] [] [0] [] 1 ![1, 64]
  dot_S8000x64_S64x64_S8000x64_1_0_0_1_n_n_wf : DotDims.WF S8000x64 S64x64 S8000x64 [1] [0] [0] [1] [] []
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1200000x64.size a
  hwx1_0 : ∀ i : grid1.Coords, EltTy.bits .f32 = 32 ∨ (Rect.block (s := S1200000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S1200000x64.size a
  hwx1_1 : ∀ i : grid1.Coords, EltTy.bits .f32 = 32 ∨ (Rect.block (s := S1200000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S1200000x64.size a
  hwx1_2 : ∀ i : grid1.Coords, EltTy.bits .f32 = 32 ∨ (Rect.block (s := S1200000x64) S8000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .f32 = 32 ∨ (Rect.block (s := S64x64) S64x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S8000x64.size a ≤ S1200000x64.size a
  hwx1_11 : ∀ i : grid1.Coords, EltTy.bits .f32 = 32 ∨ (Rect.block (s := S1200000x64) S8000x64.size (cc1_transform_11 i) (hinb1_11 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_arg2) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v9) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S8000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg14) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v20) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v21) S8000x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S1200000 : Shape := ⟨1, ![1200000]⟩
abbrev S100000x64 : Shape := ⟨2, ![100000, 64]⟩
abbrev S1200000x64 : Shape := ⟨2, ![1200000, 64]⟩
abbrev S64x64 : Shape := ⟨2, ![64, 64]⟩
abbrev S64 : Shape := ⟨1, ![64]⟩
abbrev S1x64 : Shape := ⟨2, ![1, 64]⟩
abbrev S_ : Shape := ⟨0, ![]⟩
abbrev S1200000x1 : Shape := ⟨2, ![1200000, 1]⟩

abbrev nBuf : Space → Nat
  | .hbm => 67
  | .vmem => 0
  | .smem => 0
  | _ => 0

abbrev bufTy : (tb : Table) → Fin (tcTables nBuf tb) → BufTy
  | .hbm, ⟨0, _⟩ => ⟨S1200000, .i32⟩
  | .hbm, ⟨1, _⟩ => ⟨S1200000, .i32⟩
  | .hbm, ⟨2, _⟩ => ⟨S100000x64, .f32⟩
  | .hbm, ⟨3, _⟩ => ⟨S1200000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S100000x64, .f32⟩
  | .hbm, ⟨17, _⟩ => ⟨S1x64, .f32⟩
  | .hbm, ⟨18, _⟩ => ⟨S100000x64, .f32⟩
  | .hbm, ⟨19, _⟩ => ⟨S100000x64, .f32⟩
  | .hbm, ⟨20, _⟩ => ⟨S100000x64, .f32⟩
  | .hbm, ⟨21, _⟩ => ⟨S100000x64, .f32⟩
  | .hbm, ⟨22, _⟩ => ⟨S1x64, .f32⟩
  | .hbm, ⟨23, _⟩ => ⟨S100000x64, .f32⟩
  | .hbm, ⟨24, _⟩ => ⟨S100000x64, .f32⟩
  | .hbm, ⟨25, _⟩ => ⟨S_, .i32⟩
  | .hbm, ⟨26, _⟩ => ⟨S1200000, .i32⟩
  | .hbm, ⟨27, _⟩ => ⟨S1200000, .i1⟩
  | .hbm, ⟨28, _⟩ => ⟨S_, .i32⟩
  | .hbm, ⟨29, _⟩ => ⟨S1200000, .i32⟩
  | .hbm, ⟨30, _⟩ => ⟨S1200000, .i32⟩
  | .hbm, ⟨31, _⟩ => ⟨S1200000, .i32⟩
  | .hbm, ⟨32, _⟩ => ⟨S1200000x1, .i32⟩
  | .hbm, ⟨33, _⟩ => ⟨S1200000x64, .f32⟩
  | .hbm, ⟨34, _⟩ => ⟨S1200000x64, .f32⟩
  | .hbm, ⟨35, _⟩ => ⟨S_, .i32⟩
  | .hbm, ⟨36, _⟩ => ⟨S1200000, .i32⟩
  | .hbm, ⟨37, _⟩ => ⟨S1200000, .i1⟩
  | .hbm, ⟨38, _⟩ => ⟨S_, .i32⟩
  | .hbm, ⟨39, _⟩ => ⟨S1200000, .i32⟩
  | .hbm, ⟨40, _⟩ => ⟨S1200000, .i32⟩
  | .hbm, ⟨41, _⟩ => ⟨S1200000, .i32⟩
  | .hbm, ⟨42, _⟩ => ⟨S1200000x1, .i32⟩
  | .hbm, ⟨43, _⟩ => ⟨S1200000x64, .f32⟩
  | .hbm, ⟨44, _⟩ => ⟨S1200000x64, .f32⟩
  | .hbm, ⟨45, _⟩ => ⟨S1200000x64, .f32⟩
  | .hbm, ⟨46, _⟩ => ⟨S1x64, .f32⟩
  | .hbm, ⟨47, _⟩ => ⟨S1200000x64, .f32⟩
  | .hbm, ⟨48, _⟩ => ⟨S1200000x64, .f32⟩
  | .hbm, ⟨49, _⟩ => ⟨S1200000x64, .f32⟩
  | .hbm, ⟨50, _⟩ => ⟨S1200000x64, .f32⟩
  | .hbm, ⟨51, _⟩ => ⟨S1x64, .f32⟩
  | .hbm, ⟨52, _⟩ => ⟨S1200000x64, .f32⟩
  | .hbm, ⟨53, _⟩ => ⟨S1200000x64, .f32⟩
  | .hbm, ⟨54, _⟩ => ⟨S1200000x64, .f32⟩
  | .hbm, ⟨55, _⟩ => ⟨S1x64, .f32⟩
  | .hbm, ⟨56, _⟩ => ⟨S1200000x64, .f32⟩
  | .hbm, ⟨57, _⟩ => ⟨S1200000x64, .f32⟩
  | .hbm, ⟨58, _⟩ => ⟨S1200000x64, .f32⟩
  | .hbm, ⟨59, _⟩ => ⟨S1200000x64, .f32⟩
  | .hbm, ⟨60, _⟩ => ⟨S1x64, .f32⟩
  | .hbm, ⟨61, _⟩ => ⟨S1200000x64, .f32⟩
  | .hbm, ⟨62, _⟩ => ⟨S1200000x64, .f32⟩
  | .hbm, ⟨63, _⟩ => ⟨S_, .f32⟩
  | .hbm, ⟨64, _⟩ => ⟨S100000x64, .f32⟩
  | .hbm, ⟨65, _⟩ => ⟨S1200000x1, .i32⟩
  | .hbm, ⟨66, _⟩ => ⟨S100000x64, .f32⟩
  | _, _ => ⟨S1200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1x64_S1200000x64_0_1 : S1x64.BroadcastsInDim S1200000x64 (![0, 1] : Fin 2 → Fin S1200000x64.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  dot_S1200000x64_S64x64_S1200000x64_1_0_0_1_n_n_wf : DotDims.WF S1200000x64 S64x64 S1200000x64 [1] [0] [0] [1] [] []
  scatter_S100000x64_S1200000x1_S1200000x64_1_0_0_1_wf : ScatterDims.WF S100000x64 S1200000x1 S1200000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S1200000x64_S64x64_S1200000x64_1_0_0_1_n_n : DotDims S1200000x64 S64x64 S1200000x64 where
  lhsContracting := [1]
  rhsContracting := [0]
  lhsNonContracting := [0]
  rhsNonContracting := [1]
  lhsBatch := []
  rhsBatch := []
  wf := dot_S1200000x64_S64x64_S1200000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.KernelRun.lean ====
/-
  The kernel program's run, with its result named.

  The program is five segments: a stretch of host operations, the node region, a second stretch, the edge region, a
  last stretch. The launch over these segments ends with every unscoped buffer of each TensorCore holding the last
  boundary's contents, the fold Gen.W5 of the launch memory. The result buffer is unscoped like the sixteen argument
  buffers, so the same launch that returns the arguments as launched also gives the result buffer's final contents:
  Gen.W5 at that buffer.
-/
import proofs.«119212_j12532714569875_2_alg».proof.Proof.Gen.KernelIdeal.Frame
import proofs.«119212_j12532714569875_2_alg».proof.Proof.Gen.KernelIdeal.Launch
import proofs.«119212_j12532714569875_2_alg».proof.Proof.Gen.KernelIdeal.Skeleton
import proofs.«119212_j12532714569875_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- From any memory with zero counters, every weakly fair execution of the program on the TensorCores terminates,
    nothing faulting, and in every final state the result buffer holds the last boundary's contents (the fold of the
    launch memory through the three host stretches and the two regions) and every argument array is as launched. The
    final thread state holds every unscoped buffer at the last boundary's contents; the result buffer and the sixteen
    arguments are unscoped, and the arguments are read back through the fold to the launch memory. -/
theorem run_value : θ_run defs (onTc (τ := τ) (main (F := F))) ⟨m, fun _ => 0, ρ⟩ (fun r => ∀ c : Dev nD,
      r.2.mem ((c.tc : Thread nD τ).loc main_v24) = Gen.W5 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v24 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c)⟩)

end Cert.KernelIdeal.RunValue

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibTanhMlp.lean ====
/-
  A two-layer perceptron with a hyperbolic-tangent hidden layer, read at one entry, on the extended reals.

  lin X W B p q = (Σ k, X(p,k) · W(k,q)) + B(0,q) is entry (p, q) of X · W + b with the bias row B repeated along the
  rows; mlp X W1 B1 W2 B2 = lin (tanh ∘ lin X W1 B1) W2 B2 is the perceptron tanh(X · W1 + b1) · W2 + b2 as a whole
  array. Each is reached two ways:
    * the host's way — dot_general, the bias row broadcast along the rows, add, tanh;
    * the vector unit's way — operands narrowed to bf16 (the identity on extended reals), a matrix product into a zero
      accumulator, the bias row re-cast and broadcast, addf, tanh.
  No law of arithmetic is used beyond reading each operation at an index: the two ways are the same expression.
  An entry (p, q) of either reads only row p of X, so a block of rows of the whole array is the perceptron of that
  block of rows (mlp_congr).
-/
import proofs.«119212_j12532714569875_2_alg».proof.Proof.LibHostRead
import Idealize.ShloMosaic.Lib.ValueLayout

noncomputable section

namespace Cert.LibTanhMlp

open Idealize.ShloMosaic Idealize.ShloMosaic.ValueIdx Cert.LibHostRead

variable {M K N H : ℕ}

/-- Entry (p, q) of X · W + b, the bias given as a 1 × N row. -/
def lin (X : (⟨2, ![M, K]⟩ : Shape).Idx → EReal) (W : (⟨2, ![K, N]⟩ : Shape).Idx → EReal)
    (B : (⟨2, ![1, N]⟩ : Shape).Idx → EReal) (p : Fin M) (q : Fin N) : EReal :=
  (∑ k : Fin K, X (ix2 p k) * W (ix2 k q)) + B (ix2 (0 : Fin 1) q)

/-- X · W + b as an M × N array. -/
def linArr (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => lin X W B ⟨(i 0).val, idx2_lt0 i⟩ ⟨(i 1).val, idx2_lt1 i⟩

theorem linArr_ix2 (X : (⟨2, ![M, K]⟩ : Shape).Idx → EReal) (W : (⟨2, ![K, N]⟩ : Shape).Idx → EReal)
    (B : (⟨2, ![1, N]⟩ : Shape).Idx → EReal) (p : Fin M) (q : Fin N) : linArr X W B (ix2 p q) = lin X W B p q := rfl

/-- The hyperbolic tangent of every entry. -/
def tanhArr {s : Shape} (Y : s.Idx → EReal) : s.Idx → EReal := fun i => Ideal.tanh (Y i)

/-- tanh(X · W1 + b1) · W2 + b2 as an M × N array. -/
def mlp (X : (⟨2, ![M, K]⟩ : Shape).Idx → EReal) (W1 : (⟨2, ![K, H]⟩ : Shape).Idx → EReal)
    (B1 : (⟨2, ![1, H]⟩ : Shape).Idx → EReal) (W2 : (⟨2, ![H, N]⟩ : Shape).Idx → EReal)
    (B2 : (⟨2, ![1, N]⟩ : Shape).Idx → EReal) : (⟨2, ![M, N]⟩ : Shape).Idx → EReal :=
  linArr (tanhArr (linArr X W1 B1)) W2 B2

/-- The host's affine layer is that array. -/
theorem host_lin_eq (d : DotDims ⟨2, ![M, K]⟩ ⟨2, ![K, N]⟩ ⟨2, ![M, N]⟩) (hd : PlainDot d)
    (hb : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (Host.dotGeneral d none X W) (broadcastInDim ⟨2, ![M, N]⟩ ![0, 1] hb B) = linArr X W B := by
  funext i
  obtain ⟨p, q, rfl⟩ : ∃ (p : Fin M) (q : Fin N), i = ix2 p q := ⟨i 0, i 1, eq_ix2 i⟩
  rw [addf_apply, bid_1b_ab_apply]
  show FloatOps.dotGeneral d none .single X W (ix2 p q) + _ = _
  rw [dotGeneral_plain_apply d hd]
  rfl

/-- The host's tanh of an array is tanhArr. -/
theorem host_tanh_eq {s : Shape} (Y : FVec Ideal s .f32) : Host.tanh Y = tanhArr Y := rfl

/-- The vector unit's tanh of an array is tanhArr. -/
theorem vec_tanh_eq {s : Shape} (Y : FVec Ideal s .f32) : tanh Y = tanhArr Y := rfl

/-- The host's perceptron is mlp. -/
theorem host_mlp_eq (d1 : DotDims ⟨2, ![M, K]⟩ ⟨2, ![K, H]⟩ ⟨2, ![M, H]⟩) (hd1 : PlainDot d1)
    (d2 : DotDims ⟨2, ![M, H]⟩ ⟨2, ![H, N]⟩ ⟨2, ![M, N]⟩) (hd2 : PlainDot d2)
    (hb1 : (⟨2, ![1, H]⟩ : Shape).BroadcastsInDim ⟨2, ![M, H]⟩ ![0, 1])
    (hb2 : (⟨2, ![1, N]⟩ : Shape).BroadcastsInDim ⟨2, ![M, N]⟩ ![0, 1])
    (X : FVec Ideal ⟨2, ![M, K]⟩ .f32) (W1 : FVec Ideal ⟨2, ![K, H]⟩ .f32) (B1 : FVec Ideal ⟨2, ![1, H]⟩ .f32)
    (W2 : FVec Ideal ⟨2, ![H, N]⟩ .f32) (B2 : FVec Ideal ⟨2, ![1, N]⟩ .f32) :
    addf (Host.dotGeneral d2 none
        (Host.tanh (addf (Host.dotGeneral d1 none X W1) (broadcastInDim ⟨2, ![M, H]⟩ ![0, 1] hb1 B1))) W2)
      (broadcastInDim ⟨2, ![M, N]⟩ ![0, 1] hb2 B2) = mlp X W1 B1 W2 B2 := by
  rw [host_lin_eq d1 hd1 hb1, host_tanh_eq, host_lin_eq d2 hd2 hb2]
  rfl

/-- The vector unit's affine layer is that array. -/
theorem vec_lin_eq (d : DotDims ⟨2, ![M, K]⟩ ⟨2, ![K, N]⟩ ⟨2, ![M, N]⟩) (hd : PlainDot d)
    (hn : FTy.bf16.bits < FTy.f32.bits) (hs : (⟨2, ![1, N]⟩ : Shape).ShapeCasts ⟨2, ![1, N]⟩)
    (hbt : (⟨2, ![1, N]⟩ : Shape).Broadcasts ⟨2, ![M, N]⟩)
    (x0 : FVec Ideal ⟨2, ![M, K]⟩ .f32) (x1 : FVec Ideal ⟨2, ![K, N]⟩ .f32) (x2 : FVec Ideal ⟨2, ![1, N]⟩ .f32) :
    addf (matmul d none (truncf .bf16 x0 hn) (truncf .bf16 x1 hn) (constant ⟨2, ![M, N]⟩ .f32 0x00000000#32))
        (broadcastTo ⟨2, ![M, N]⟩ (shapeCast ⟨2, ![1, N]⟩ x2 hs) hbt) = linArr x0 x1 x2 := by
  funext i
  obtain ⟨p, q, rfl⟩ : ∃ (p : Fin M) (q : Fin N), i = ix2 p q := ⟨i 0, i 1, eq_ix2 i⟩
  rw [addf_apply, shapeCast_self, broadcastTo_1b_ab_apply]
  show FloatOps.matmul d none (truncf .bf16 x0 hn) (truncf .bf16 x1 hn) (constant ⟨2, ![M, N]⟩ .f32 0x00000000#32) (ix2 p q) + _ = _
  rw [matmul_plain_zero_apply d hd]
  rfl

/-- The vector unit's perceptron is mlp. -/
theorem vec_mlp_eq (d1 : DotDims ⟨2, ![M, K]⟩ ⟨2, ![K, H]⟩ ⟨2, ![M, H]⟩) (hd1 : PlainDot d1)
    (d2 : DotDims ⟨2, ![M, H]⟩ ⟨2, ![H, N]⟩ ⟨2, ![M, N]⟩) (hd2 : PlainDot d2)
    (hn : FTy.bf16.bits < FTy.f32.bits)
    (hs1 : (⟨2, ![1, H]⟩ : Shape).ShapeCasts ⟨2, ![1, H]⟩) (hbt1 : (⟨2, ![1, H]⟩ : Shape).Broadcasts ⟨2, ![M, H]⟩)
    (hs2 : (⟨2, ![1, N]⟩ : Shape).ShapeCasts ⟨2, ![1, N]⟩) (hbt2 : (⟨2, ![1, N]⟩ : Shape).Broadcasts ⟨2, ![M, N]⟩)
    (x0 : FVec Ideal ⟨2, ![M, K]⟩ .f32) (x1 : FVec Ideal ⟨2, ![K, H]⟩ .f32) (x2 : FVec Ideal ⟨2, ![1, H]⟩ .f32)
    (x3 : FVec Ideal ⟨2, ![H, N]⟩ .f32) (x4 : FVec Ideal ⟨2, ![1, N]⟩ .f32) :
    addf (matmul d2 none
          (truncf .bf16 (tanh (addf (matmul d1 none (truncf .bf16 x0 hn) (truncf .bf16 x1 hn) (constant ⟨2, ![M, H]⟩ .f32 0x00000000#32))
              (broadcastTo ⟨2, ![M, H]⟩ (shapeCast ⟨2, ![1, H]⟩ x2 hs1) hbt1))) hn)
          (truncf .bf16 x3 hn) (constant ⟨2, ![M, N]⟩ .f32 0x00000000#32))
        (broadcastTo ⟨2, ![M, N]⟩ (shapeCast ⟨2, ![1, N]⟩ x4 hs2) hbt2) = mlp x0 x1 x2 x3 x4 := by
  rw [vec_lin_eq d1 hd1 hn hs1 hbt1, vec_tanh_eq, vec_lin_eq d2 hd2 hn hs2 hbt2]
  rfl

/-- An entry (p, q) of X · W + b reads row p of X: operands that agree there (row p of one against row r of the other)
    give the same entry. -/
theorem lin_congr {M' : ℕ} (X : (⟨2, ![M, K]⟩ : Shape).Idx → EReal) (X' : (⟨2, ![M', K]⟩ : Shape).Idx → EReal)
    (W : (⟨2, ![K, N]⟩ : Shape).Idx → EReal) (B : (⟨2, ![1, N]⟩ : Shape).Idx → EReal) (p : Fin M) (r : Fin M') (q : Fin N)
    (hX : ∀ k : Fin K, X (ix2 p k) = X' (ix2 r k)) : lin X W B p q = lin X' W B r q := by
  unfold lin
  simp only [hX]

/-- An entry (p, q) of the perceptron reads row p of X. -/
theorem mlp_congr {M' : ℕ} (X : (⟨2, ![M, K]⟩ : Shape).Idx → EReal) (X' : (⟨2, ![M', K]⟩ : Shape).Idx → EReal)
    (W1 : (⟨2, ![K, H]⟩ : Shape).Idx → EReal) (B1 : (⟨2, ![1, H]⟩ : Shape).Idx → EReal)
    (W2 : (⟨2, ![H, N]⟩ : Shape).Idx → EReal) (B2 : (⟨2, ![1, N]⟩ : Shape).Idx → EReal) (p : Fin M) (r : Fin M') (q : Fin N)
    (hX : ∀ k : Fin K, X (ix2 p k) = X' (ix2 r k)) :
    mlp X W1 B1 W2 B2 (ix2 p q) = mlp X' W1 B1 W2 B2 (ix2 r q) := by
  unfold mlp
  rw [linArr_ix2, linArr_ix2]
  refine lin_congr _ _ W2 B2 p r q fun k => ?_
  show Ideal.tanh (linArr X W1 B1 (ix2 p k)) = Ideal.tanh (linArr X' W1 B1 (ix2 r k))
  rw [linArr_ix2, linArr_ix2, lin_congr X X' W1 B1 p r k hX]

end Cert.LibTanhMlp

end
-- ==== Proof.Model.lean ====
/-
  The whole computation as one function of its inputs, with the two row gathers and the row scatter as parameters.

  A perceptron over the node features; its rows gathered at both endpoints of every edge and summed with the edge's
  basis row; two more perceptrons over the edges; the edge rows scattered back onto the nodes. Both programs compute
  this function: they differ in how the perceptrons are tiled, not in what they compute, and they share the gathers and
  the scatter, which stay closed here.
-/
import proofs.«119212_j12532714569875_2_alg».proof.Proof.LibTanhMlp

noncomputable section

namespace Cert.Model

open Idealize.ShloMosaic Cert.LibTanhMlp

/-- The two perceptrons of the sum of three arrays of rows, as one array. -/
def edge {E : ℕ} (gi gj basis : (⟨2, ![E, 64]⟩ : Shape).Idx → EReal)
    (w1 : (⟨2, ![64, 64]⟩ : Shape).Idx → EReal) (b1 : (⟨2, ![1, 64]⟩ : Shape).Idx → EReal)
    (w2 : (⟨2, ![64, 64]⟩ : Shape).Idx → EReal) (b2 : (⟨2, ![1, 64]⟩ : Shape).Idx → EReal)
    (w3 : (⟨2, ![64, 64]⟩ : Shape).Idx → EReal) (b3 : (⟨2, ![1, 64]⟩ : Shape).Idx → EReal)
    (w4 : (⟨2, ![64, 64]⟩ : Shape).Idx → EReal) (b4 : (⟨2, ![1, 64]⟩ : Shape).Idx → EReal) :
    (⟨2, ![E, 64]⟩ : Shape).Idx → EReal :=
  mlp (mlp (fun i => gi i + basis i + gj i) w1 b1 w2 b2) w3 b3 w4 b4

/-- The result: the scatter of the edge perceptrons of the gathered node perceptron. The bias of every layer is given
    as a 1 × 64 row. -/
def result (gatherI gatherJ : ((⟨2, ![100000, 64]⟩ : Shape).Idx → EReal) → ((⟨2, ![1200000, 64]⟩ : Shape).Idx → EReal))
    (scatter : ((⟨2, ![1200000, 64]⟩ : Shape).Idx → EReal) → ((⟨2, ![100000, 64]⟩ : Shape).Idx → EReal))
    (p1 : (⟨2, ![100000, 64]⟩ : Shape).Idx → EReal) (basis : (⟨2, ![1200000, 64]⟩ : Shape).Idx → EReal)
    (w1 : (⟨2, ![64, 64]⟩ : Shape).Idx → EReal) (b1 : (⟨2, ![1, 64]⟩ : Shape).Idx → EReal)
    (w2 : (⟨2, ![64, 64]⟩ : Shape).Idx → EReal) (b2 : (⟨2, ![1, 64]⟩ : Shape).Idx → EReal)
    (w3 : (⟨2, ![64, 64]⟩ : Shape).Idx → EReal) (b3 : (⟨2, ![1, 64]⟩ : Shape).Idx → EReal)
    (w4 : (⟨2, ![64, 64]⟩ : Shape).Idx → EReal) (b4 : (⟨2, ![1, 64]⟩ : Shape).Idx → EReal)
    (w5 : (⟨2, ![64, 64]⟩ : Shape).Idx → EReal) (b5 : (⟨2, ![1, 64]⟩ : Shape).Idx → EReal)
    (w6 : (⟨2, ![64, 64]⟩ : Shape).Idx → EReal) (b6 : (⟨2, ![1, 64]⟩ : Shape).Idx → EReal) :
    (⟨2, ![100000, 64]⟩ : Shape).Idx → EReal :=
  scatter (edge (gatherI (mlp p1 w1 b1 w2 b2)) (gatherJ (mlp p1 w1 b1 w2 b2)) basis w3 b3 w4 b4 w5 b5 w6 b6)

end Cert.Model

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«119212_j12532714569875_2_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.NodeRegion.lean ====
/-
  The node region: ten blocks of 10000 rows, each the perceptron tanh(x · w1 + b1) · w2 + b2 of its rows.

  The body stores one value over its whole output block: the perceptron of the loaded block of rows, the two weight
  matrices and the two bias rows (the vector unit's way of LibTanhMlp). An entry of the perceptron reads one row of
  its first operand, row r of the array lies in block r / 10000 at row r % 10000, and the weight and bias windows are
  their whole arrays at every point; so block t of the perceptron of the whole array is what point t writes back, the
  ten blocks tile the array, and the array ends holding the perceptron of the whole arrays.
-/
import proofs.«119212_j12532714569875_2_alg».proof.Proof.Gen.KernelIdeal.Frame
import proofs.«119212_j12532714569875_2_alg».proof.Proof.LibTanhMlp
import proofs.«119212_j12532714569875_2_alg».proof.Proof.LibPlainDot

noncomputable section

namespace Cert.KernelIdeal.NodeValue

open Idealize.ShloMosaic Idealize.ShloMosaic.TcCoe Idealize.SL.Sem Idealize.ShloMosaic.ValueIdx
open Cert.KernelIdeal Cert.KernelIdeal.Gen Cert.LibHostRead Cert.LibPlainDot Cert.LibTanhMlp

theorem hz : (![0, 0] : Fin 2 → Nat) = fun _ => 0 := funext fun a => by fin_cases a <;> rfl

/-- The body's matrix product is rows times columns. -/
theorem plain0 : PlainDot dot_S10000x64_S64x64_S10000x64_1_0_0_1_n_n where
  hr := rfl
  hs := rfl
  hl0 := fun _ _ => rfl
  hl1 := fun _ _ => rfl
  hr0 := fun _ _ => rfl
  hr1 := fun _ _ => rfl

/-- What the body leaves in its output block: the perceptron of the loaded blocks. -/
theorem out0_5_eq (x0 : Vec Ideal S10000x64 .f32) (x1 : Vec Ideal S64x64 .f32) (x2 : Vec Ideal S1x64 .f32)
    (x3 : Vec Ideal S64x64 .f32) (x4 : Vec Ideal S1x64 .f32) :
    out0_5 (F := Ideal) x0 x1 x2 x3 x4 = mlp x0 x1 x2 x3 x4 := by
  unfold out0_5
  rw [View.canon_unit_zero hz]
  simp only [View.ld_unit_zero (S := S10000x64) hz, View.ld_unit_zero (S := S64x64) hz, View.ld_unit_zero (S := S1x64) hz]
  unfold k0_pay1
  exact vec_mlp_eq _ plain0 _ plain0 _ _ _ _ _ x0 x1 x2 x3 x4

/-- The printed index maps, decided over the grid: the row windows sit at block row t, the weight and bias windows at
    the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A block of rows of the perceptron: when the block x0 holds rows tv·10000 … of X, entry y of the perceptron of the
    block is entry i of the perceptron of X, for i the index y lies at in the array. -/
theorem point_eq (X : FVec Ideal S100000x64 .f32) (W1 : FVec Ideal S64x64 .f32) (B1 : FVec Ideal S1x64 .f32)
    (W2 : FVec Ideal S64x64 .f32) (B2 : FVec Ideal S1x64 .f32)
    (x0 : Vec Ideal S10000x64 .f32) (x1 : Vec Ideal S64x64 .f32) (x2 : Vec Ideal S1x64 .f32)
    (x3 : Vec Ideal S64x64 .f32) (x4 : Vec Ideal S1x64 .f32) (tv : ℕ) (ht : tv < 10)
    (h0 : ∀ (p : Fin 10000) (k : Fin 64), x0 (ix2 p k) = X (ix2 (⟨tv * 10000 + p.val, by omega⟩ : Fin 100000) k))
    (h1 : x1 = W1) (h2 : x2 = B1) (h3 : x3 = W2) (h4 : x4 = B2)
    (y : S10000x64.Idx) (i : S100000x64.Idx) (hi0 : (i 0).val = tv * 10000 + (y 0).val) (hi1 : (i 1).val = (y 1).val) :
    mlp x0 x1 x2 x3 x4 y = mlp X W1 B1 W2 B2 i := by
  subst h1 h2 h3 h4
  obtain ⟨p, q, rfl⟩ : ∃ (p : Fin 10000) (q : Fin 64), y = ix2 p q := ⟨y 0, y 1, eq_ix2 y⟩
  have hlt : tv * 10000 + p.val < 100000 := by omega
  obtain ⟨r, q', rfl⟩ : ∃ (r : Fin 100000) (q' : Fin 64), i = ix2 r q' := ⟨i 0, i 1, eq_ix2 i⟩
  have hr : r = ⟨tv * 10000 + p.val, hlt⟩ := Fin.ext hi0
  have hq : q' = q := Fin.ext hi1
  rw [hr, hq]
  exact mlp_congr x0 X x1 x2 x3 x4 p _ q (h0 p)

variable (V : (c : Dev nD) → (b : Ref sig .tc) → Buf (Elt Ideal) ((c : Thread nD τ).loc b))

/-- WHAT POINT t WRITES BACK is block t of the perceptron of the arrays the region finds. -/
theorem flushed_eq (c : Dev nD) (t : Fin cfg0.N) :
    (dat0 V c).flushed 5 t = ((cfg0.win 5).blk t).view.read (Elt Ideal)
      (mlp (M := 100000) (K := 64) (H := 64) (N := 64) (V c main_arg2) (V c main_arg4) (V c main_v0) (V c main_arg6) (V c main_v1)) := by
  show (cfg0.win 5).cut (grid0.coords t) ((dat0 V c).after 5 t) = _
  rw [after0_5, out0_5_eq]
  obtain ⟨e00, e01, e10, e11, e20, e21, e30, e31, e40, e41, e50, e51⟩ := idx_facts t
  have ht : t.val < 10 := lt_of_lt_of_eq t.isLt N_0
  funext y
  show mlp (iblk0 V c 0 t) (iblk0 V c 1 t) (iblk0 V c 2 t) (iblk0 V c 3 t) (iblk0 V c 4 t) y
    = mlp (M := 100000) (K := 64) (H := 64) (N := 64) (V c main_arg2) (V c main_arg4) (V c main_v0) (V c main_arg6) (V c main_v1)
        (((cfg0.win 5).blk t).view.emb y)
  refine point_eq (V c main_arg2) (V c main_arg4) (V c main_v0) (V c main_arg6) (V c main_v1)
    (iblk0 V c 0 t) (iblk0 V c 1 t) (iblk0 V c 2 t) (iblk0 V c 3 t) (iblk0 V c 4 t) t.val ht ?_ ?_ ?_ ?_ ?_ y
    (((cfg0.win 5).blk t).view.emb y) ?_ ?_
  · intro p k
    show V c main_arg2 (((cfg0.win 0).blk t).view.emb (ix2 p k)) = _
    refine congrArg (V c main_arg2) (funext fun a => Fin.ext ?_)
    match a with
    | ⟨0, _⟩ => show win0_0.index t (0 : Fin 2) * 10000 + 1 * p.val = t.val * 10000 + p.val; omega
    | ⟨1, _⟩ => show win0_0.index t (1 : Fin 2) * 64 + 1 * k.val = k.val; omega
  · funext j
    show V c main_arg4 (((cfg0.win 1).blk t).view.emb j) = V c main_arg4 j
    refine congrArg (V c main_arg4) (funext fun a => Fin.ext ?_)
    match a with
    | ⟨0, _⟩ => show win0_1.index t (0 : Fin 2) * 64 + 1 * (j 0).val = (j 0).val; omega
    | ⟨1, _⟩ => show win0_1.index t (1 : Fin 2) * 64 + 1 * (j 1).val = (j 1).val; omega
  · funext j
    show V c main_v0 (((cfg0.win 2).blk t).view.emb j) = V c main_v0 j
    refine congrArg (V c main_v0) (funext fun a => Fin.ext ?_)
    match a with
    | ⟨0, _⟩ => show win0_2.index t (0 : Fin 2) * 1 + 1 * (j 0).val = (j 0).val; omega
    | ⟨1, _⟩ => show win0_2.index t (1 : Fin 2) * 64 + 1 * (j 1).val = (j 1).val; omega
  · funext j
    show V c main_arg6 (((cfg0.win 3).blk t).view.emb j) = V c main_arg6 j
    refine congrArg (V c main_arg6) (funext fun a => Fin.ext ?_)
    match a with
    | ⟨0, _⟩ => show win0_3.index t (0 : Fin 2) * 64 + 1 * (j 0).val = (j 0).val; omega
    | ⟨1, _⟩ => show win0_3.index t (1 : Fin 2) * 64 + 1 * (j 1).val = (j 1).val; omega
  · funext j
    show V c main_v1 (((cfg0.win 4).blk t).view.emb j) = V c main_v1 j
    refine congrArg (V c main_v1) (funext fun a => Fin.ext ?_)
    match a with
    | ⟨0, _⟩ => show win0_4.index t (0 : Fin 2) * 1 + 1 * (j 0).val = (j 0).val; omega
    | ⟨1, _⟩ => show win0_4.index t (1 : Fin 2) * 64 + 1 * (j 1).val = (j 1).val; omega
  · show win0_5.index t (0 : Fin 2) * 10000 + 1 * (y 0).val = t.val * 10000 + (y 0).val; omega
  · show win0_5.index t (1 : Fin 2) * 64 + 1 * (y 1).val = (y 1).val; omega

/-- An index of the array is in point t's block iff each coordinate is in the block's range on its axis. -/
theorem mem_blk (t : Fin cfg0.N) (i : S100000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v2).slice (win0_5.rect t)).set ↔ _
  rw [View.set_slice_whole, Rect.mem_set_unit]
  exact Iff.rfl

/-- The ten blocks tile the array: row r lies in the block of point r / 10000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  have hlt : (i 0).val / 10000 < cfg0.N := by rw [hN]; omega
  obtain ⟨-, -, -, -, -, -, -, -, -, -, e50, e51⟩ := idx_facts ⟨(i 0).val / 10000, hlt⟩
  refine ⟨⟨(i 0).val / 10000, hlt⟩, flush0_5 _, ?_⟩
  rw [mem_blk]
  intro a
  match a with
  | ⟨0, _⟩ =>
    show win0_5.index ⟨(i 0).val / 10000, hlt⟩ (0 : Fin 2) * 10000 ≤ (i 0).val
      ∧ (i 0).val < win0_5.index ⟨(i 0).val / 10000, hlt⟩ (0 : Fin 2) * 10000 + 10000
    rw [e50]; show (i 0).val / 10000 * 10000 ≤ (i 0).val ∧ (i 0).val < (i 0).val / 10000 * 10000 + 10000; omega
  | ⟨1, _⟩ =>
    show win0_5.index ⟨(i 0).val / 10000, hlt⟩ (1 : Fin 2) * 64 ≤ (i 1).val
      ∧ (i 1).val < win0_5.index ⟨(i 0).val / 10000, hlt⟩ (1 : Fin 2) * 64 + 64
    rw [e51]; omega

/-- THE ARRAY after the region: the perceptron of the arrays the region finds. -/
theorem node_final (c : Dev nD) :
    (dat0 V c).arrAt 5 cfg0.N
      = mlp (M := 100000) (K := 64) (H := 64) (N := 64) (V c main_arg2) (V c main_arg4) (V c main_v0) (V c main_arg6) (V c main_v1) :=
  (dat0 V c).arrAt_eq_of_cover 5 _ (fun t _ => flushed_eq V c t) cover

end Cert.KernelIdeal.NodeValue

end
-- ==== Proof.EdgeRegion.lean ====
/-
  The edge region: 150 blocks of 8000 rows. Each block's rows are summed from three arrays (the two gathered node
  features and the basis), sent through one perceptron and then through a second.

  The body stores one value over its whole output block: the second perceptron of the first perceptron of the sum of
  the three loaded blocks of rows (the vector unit's way of LibTanhMlp, twice). An entry reads one row of the three row
  operands, row r of each array lies in block r / 8000 at row r % 8000, and the weight and bias windows are their whole
  arrays at every point; so the 150 blocks tile the array and it ends holding the two perceptrons of the whole arrays.
-/
import proofs.«119212_j12532714569875_2_alg».proof.Proof.Gen.KernelIdeal.Frame
import proofs.«119212_j12532714569875_2_alg».proof.Proof.LibTanhMlp
import proofs.«119212_j12532714569875_2_alg».proof.Proof.LibPlainDot
import proofs.«119212_j12532714569875_2_alg».proof.Proof.Model

noncomputable section

namespace Cert.KernelIdeal.EdgeValue

open Idealize.ShloMosaic Idealize.ShloMosaic.TcCoe Idealize.SL.Sem Idealize.ShloMosaic.ValueIdx
open Cert.KernelIdeal Cert.KernelIdeal.Gen Cert.LibHostRead Cert.LibPlainDot Cert.LibTanhMlp Cert.Model

theorem hz : (![0, 0] : Fin 2 → Nat) = fun _ => 0 := funext fun a => by fin_cases a <;> rfl

/-- The body's matrix product is rows times columns. -/
theorem plain1 : PlainDot dot_S8000x64_S64x64_S8000x64_1_0_0_1_n_n where
  hr := rfl
  hs := rfl
  hl0 := fun _ _ => rfl
  hl1 := fun _ _ => rfl
  hr0 := fun _ _ => rfl
  hr1 := fun _ _ => rfl

/-- What the body leaves in its output block: the two perceptrons of the sum of the loaded blocks. -/
theorem out1_11_eq (x0 x1 x2 : Vec Ideal S8000x64 .f32) (x3 : Vec Ideal S64x64 .f32) (x4 : Vec Ideal S1x64 .f32)
    (x5 : Vec Ideal S64x64 .f32) (x6 : Vec Ideal S1x64 .f32) (x7 : Vec Ideal S64x64 .f32) (x8 : Vec Ideal S1x64 .f32)
    (x9 : Vec Ideal S64x64 .f32) (x10 : Vec Ideal S1x64 .f32) :
    out1_11 (F := Ideal) x0 x1 x2 x3 x4 x5 x6 x7 x8 x9 x10 = edge (E := 8000) x0 x1 x2 x3 x4 x5 x6 x7 x8 x9 x10 := by
  unfold out1_11
  rw [View.canon_unit_zero hz]
  simp only [View.ld_unit_zero (S := S8000x64) hz, View.ld_unit_zero (S := S64x64) hz, View.ld_unit_zero (S := S1x64) hz]
  unfold k1_pay1 k1_pay2 k1_pay3 edge
  rw [shapeCast_self, shapeCast_self]
  have e1 := vec_mlp_eq _ plain1 _ plain1 Facts₀.bitsLt_bf16_f32 Facts₀.shapeCasts_S1x64_S1x64 Facts₀.broadcasts_S1x64_S8000x64
    Facts₀.shapeCasts_S1x64_S1x64 Facts₀.broadcasts_S1x64_S8000x64 (addf (addf x0 x2) x1) x3 x4 x5 x6
  have e2 := vec_mlp_eq _ plain1 _ plain1 Facts₀.bitsLt_bf16_f32 Facts₀.shapeCasts_S1x64_S1x64 Facts₀.broadcasts_S1x64_S8000x64
    Facts₀.shapeCasts_S1x64_S1x64 Facts₀.broadcasts_S1x64_S8000x64 (mlp (addf (addf x0 x2) x1 : FVec Ideal S8000x64 .f32) x3 x4 x5 x6) x7 x8 x9 x10
  conv at e2 => lhs; rw [← e1]
  exact e2

/-- The printed index maps, decided over the grid: the row windows sit at block row t, the weight and bias windows at
    the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = t.val ∧ win1_11.index t (1 : Fin 2) = 0 :=
  (by decide +kernel : ∀ t : Fin grid1.N, _)

/-- A block of rows of the two perceptrons: when the blocks x0, x1, x2 hold rows tv·8000 … of GI, GJ, BASIS, entry y of
    the perceptrons of the blocks is entry i of the perceptrons of the arrays, for i the index y lies at in the array. -/
theorem point_eq (GI GJ BASIS : FVec Ideal S1200000x64 .f32)
    (W1 : FVec Ideal S64x64 .f32) (B1 : FVec Ideal S1x64 .f32) (W2 : FVec Ideal S64x64 .f32) (B2 : FVec Ideal S1x64 .f32)
    (W3 : FVec Ideal S64x64 .f32) (B3 : FVec Ideal S1x64 .f32) (W4 : FVec Ideal S64x64 .f32) (B4 : FVec Ideal S1x64 .f32)
    (x0 x1 x2 : Vec Ideal S8000x64 .f32) (x3 : Vec Ideal S64x64 .f32) (x4 : Vec Ideal S1x64 .f32)
    (x5 : Vec Ideal S64x64 .f32) (x6 : Vec Ideal S1x64 .f32) (x7 : Vec Ideal S64x64 .f32) (x8 : Vec Ideal S1x64 .f32)
    (x9 : Vec Ideal S64x64 .f32) (x10 : Vec Ideal S1x64 .f32) (tv : ℕ) (ht : tv < 150)
    (h0 : ∀ (p : Fin 8000) (k : Fin 64), x0 (ix2 p k) = GI (ix2 (⟨tv * 8000 + p.val, by omega⟩ : Fin 1200000) k))
    (h1 : ∀ (p : Fin 8000) (k : Fin 64), x1 (ix2 p k) = GJ (ix2 (⟨tv * 8000 + p.val, by omega⟩ : Fin 1200000) k))
    (h2 : ∀ (p : Fin 8000) (k : Fin 64), x2 (ix2 p k) = BASIS (ix2 (⟨tv * 8000 + p.val, by omega⟩ : Fin 1200000) k))
    (h3 : x3 = W1) (h4 : x4 = B1) (h5 : x5 = W2) (h6 : x6 = B2) (h7 : x7 = W3) (h8 : x8 = B3) (h9 : x9 = W4) (h10 : x10 = B4)
    (y : S8000x64.Idx) (i : S1200000x64.Idx) (hi0 : (i 0).val = tv * 8000 + (y 0).val) (hi1 : (i 1).val = (y 1).val) :
    edge (E := 8000) x0 x1 x2 x3 x4 x5 x6 x7 x8 x9 x10 y = edge (E := 1200000) GI GJ BASIS W1 B1 W2 B2 W3 B3 W4 B4 i := by
  subst h3 h4 h5 h6 h7 h8 h9 h10
  obtain ⟨p, q, rfl⟩ : ∃ (p : Fin 8000) (q : Fin 64), y = ix2 p q := ⟨y 0, y 1, eq_ix2 y⟩
  have hlt : tv * 8000 + p.val < 1200000 := by omega
  obtain ⟨r, q', rfl⟩ : ∃ (r : Fin 1200000) (q' : Fin 64), i = ix2 r q' := ⟨i 0, i 1, eq_ix2 i⟩
  have hr : r = ⟨tv * 8000 + p.val, hlt⟩ := Fin.ext hi0
  have hq : q' = q := Fin.ext hi1
  rw [hr, hq]
  unfold edge
  refine mlp_congr _ _ x7 x8 x9 x10 p _ q fun k => ?_
  refine mlp_congr _ _ x3 x4 x5 x6 p _ k fun k' => ?_
  show x0 (ix2 p k') + x2 (ix2 p k') + x1 (ix2 p k') = _
  rw [h0, h1, h2]

variable (V : (c : Dev nD) → (b : Ref sig .tc) → Buf (Elt Ideal) ((c : Thread nD τ).loc b))

/-- WHAT POINT t WRITES BACK is block t of the two perceptrons of the arrays the region finds. -/
theorem flushed_eq (c : Dev nD) (t : Fin cfg1.N) :
    (dat1 V c).flushed 11 t = ((cfg1.win 11).blk t).view.read (Elt Ideal)
      (edge (E := 1200000) (V c main_v9) (V c main_v16) (V c main_arg3) (V c main_arg8) (V c main_v17) (V c main_arg10) (V c main_v18)
          (V c main_arg12) (V c main_v19) (V c main_arg14) (V c main_v20)) := by
  show (cfg1.win 11).cut (grid1.coords t) ((dat1 V c).after 11 t) = _
  rw [after1_11, out1_11_eq]
  obtain ⟨e00, e01, e10, e11, e20, e21, e30, e31, e40, e41, e50, e51, e60, e61, e70, e71, e80, e81, e90, e91, ea0, ea1, eb0, eb1⟩ := idx_facts t
  have ht : t.val < 150 := lt_of_lt_of_eq t.isLt N_1
  funext y
  show edge (E := 8000) (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (iblk1 V c 10 t) y
    = edge (E := 1200000) (V c main_v9) (V c main_v16) (V c main_arg3) (V c main_arg8) (V c main_v17) (V c main_arg10) (V c main_v18)
        (V c main_arg12) (V c main_v19) (V c main_arg14) (V c main_v20) (((cfg1.win 11).blk t).view.emb y)
  refine point_eq (V c main_v9) (V c main_v16) (V c main_arg3) (V c main_arg8) (V c main_v17) (V c main_arg10) (V c main_v18)
    (V c main_arg12) (V c main_v19) (V c main_arg14) (V c main_v20)
    (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) t.val ht ?_ ?_ ?_ ?_ ?_ ?_ ?_ ?_ ?_ ?_ ?_ y
    (((cfg1.win 11).blk t).view.emb y) ?_ ?_
  · intro p k
    show V c main_v9 (((cfg1.win 0).blk t).view.emb (ix2 p k)) = _
    refine congrArg (V c main_v9) (funext fun a => Fin.ext ?_)
    match a with
    | ⟨0, _⟩ => show win1_0.index t (0 : Fin 2) * 8000 + 1 * p.val = t.val * 8000 + p.val; omega
    | ⟨1, _⟩ => show win1_0.index t (1 : Fin 2) * 64 + 1 * k.val = k.val; omega
  · intro p k
    show V c main_v16 (((cfg1.win 1).blk t).view.emb (ix2 p k)) = _
    refine congrArg (V c main_v16) (funext fun a => Fin.ext ?_)
    match a with
    | ⟨0, _⟩ => show win1_1.index t (0 : Fin 2) * 8000 + 1 * p.val = t.val * 8000 + p.val; omega
    | ⟨1, _⟩ => show win1_1.index t (1 : Fin 2) * 64 + 1 * k.val = k.val; omega
  · intro p k
    show V c main_arg3 (((cfg1.win 2).blk t).view.emb (ix2 p k)) = _
    refine congrArg (V c main_arg3) (funext fun a => Fin.ext ?_)
    match a with
    | ⟨0, _⟩ => show win1_2.index t (0 : Fin 2) * 8000 + 1 * p.val = t.val * 8000 + p.val; omega
    | ⟨1, _⟩ => show win1_2.index t (1 : Fin 2) * 64 + 1 * k.val = k.val; omega
  · funext j
    show V c main_arg8 (((cfg1.win 3).blk t).view.emb j) = V c main_arg8 j
    refine congrArg (V c main_arg8) (funext fun a => Fin.ext ?_)
    match a with
    | ⟨0, _⟩ => show win1_3.index t (0 : Fin 2) * 64 + 1 * (j 0).val = (j 0).val; omega
    | ⟨1, _⟩ => show win1_3.index t (1 : Fin 2) * 64 + 1 * (j 1).val = (j 1).val; omega
  · funext j
    show V c main_v17 (((cfg1.win 4).blk t).view.emb j) = V c main_v17 j
    refine congrArg (V c main_v17) (funext fun a => Fin.ext ?_)
    match a with
    | ⟨0, _⟩ => show win1_4.index t (0 : Fin 2) * 1 + 1 * (j 0).val = (j 0).val; omega
    | ⟨1, _⟩ => show win1_4.index t (1 : Fin 2) * 64 + 1 * (j 1).val = (j 1).val; omega
  · funext j
    show V c main_arg10 (((cfg1.win 5).blk t).view.emb j) = V c main_arg10 j
    refine congrArg (V c main_arg10) (funext fun a => Fin.ext ?_)
    match a with
    | ⟨0, _⟩ => show win1_5.index t (0 : Fin 2) * 64 + 1 * (j 0).val = (j 0).val; omega
    | ⟨1, _⟩ => show win1_5.index t (1 : Fin 2) * 64 + 1 * (j 1).val = (j 1).val; omega
  · funext j
    show V c main_v18 (((cfg1.win 6).blk t).view.emb j) = V c main_v18 j
    refine congrArg (V c main_v18) (funext fun a => Fin.ext ?_)
    match a with
    | ⟨0, _⟩ => show win1_6.index t (0 : Fin 2) * 1 + 1 * (j 0).val = (j 0).val; omega
    | ⟨1, _⟩ => show win1_6.index t (1 : Fin 2) * 64 + 1 * (j 1).val = (j 1).val; omega
  · funext j
    show V c main_arg12 (((cfg1.win 7).blk t).view.emb j) = V c main_arg12 j
    refine congrArg (V c main_arg12) (funext fun a => Fin.ext ?_)
    match a with
    | ⟨0, _⟩ => show win1_7.index t (0 : Fin 2) * 64 + 1 * (j 0).val = (j 0).val; omega
    | ⟨1, _⟩ => show win1_7.index t (1 : Fin 2) * 64 + 1 * (j 1).val = (j 1).val; omega
  · funext j
    show V c main_v19 (((cfg1.win 8).blk t).view.emb j) = V c main_v19 j
    refine congrArg (V c main_v19) (funext fun a => Fin.ext ?_)
    match a with
    | ⟨0, _⟩ => show win1_8.index t (0 : Fin 2) * 1 + 1 * (j 0).val = (j 0).val; omega
    | ⟨1, _⟩ => show win1_8.index t (1 : Fin 2) * 64 + 1 * (j 1).val = (j 1).val; omega
  · funext j
    show V c main_arg14 (((cfg1.win 9).blk t).view.emb j) = V c main_arg14 j
    refine congrArg (V c main_arg14) (funext fun a => Fin.ext ?_)
    match a with
    | ⟨0, _⟩ => show win1_9.index t (0 : Fin 2) * 64 + 1 * (j 0).val = (j 0).val; omega
    | ⟨1, _⟩ => show win1_9.index t (1 : Fin 2) * 64 + 1 * (j 1).val = (j 1).val; omega
  · funext j
    show V c main_v20 (((cfg1.win 10).blk t).view.emb j) = V c main_v20 j
    refine congrArg (V c main_v20) (funext fun a => Fin.ext ?_)
    match a with
    | ⟨0, _⟩ => show win1_10.index t (0 : Fin 2) * 1 + 1 * (j 0).val = (j 0).val; omega
    | ⟨1, _⟩ => show win1_10.index t (1 : Fin 2) * 64 + 1 * (j 1).val = (j 1).val; omega
  · show win1_11.index t (0 : Fin 2) * 8000 + 1 * (y 0).val = t.val * 8000 + (y 0).val; omega
  · show win1_11.index t (1 : Fin 2) * 64 + 1 * (y 1).val = (y 1).val; omega

/-- An index of the array is in point t's block iff each coordinate is in the block's range on its axis. -/
theorem mem_blk (t : Fin cfg1.N) (i : S1200000x64.Idx) :
    i ∈ ((cfg1.win 11).blk t).view.set ↔ ∀ a : Fin 2, win1_11.index t a * S8000x64.size a ≤ (i a).val
      ∧ (i a).val < win1_11.index t a * S8000x64.size a + S8000x64.size a := by
  show i ∈ ((View.whole main_v21).slice (win1_11.rect t)).set ↔ _
  rw [View.set_slice_whole, Rect.mem_set_unit]
  exact Iff.rfl

/-- The 150 blocks tile the array: row r lies in the block of point r / 8000. -/
theorem cover (i : S1200000x64.Idx) :
    ∃ t : Fin cfg1.N, (cfg1.win 11).flush t = true ∧ i ∈ ((cfg1.win 11).blk t).view.set := by
  have hi0 : (i 0).val < 1200000 := (i 0).isLt
  have hi1 : (i 1).val < 64 := (i 1).isLt
  have hN : cfg1.N = 150 := N_1
  have hlt : (i 0).val / 8000 < cfg1.N := by rw [hN]; omega
  obtain ⟨-, -, -, -, -, -, -, -, -, -, -, -, -, -, -, -, -, -, -, -, -, -, eb0, eb1⟩ := idx_facts ⟨(i 0).val / 8000, hlt⟩
  refine ⟨⟨(i 0).val / 8000, hlt⟩, flush1_11 _, ?_⟩
  rw [mem_blk]
  intro a
  match a with
  | ⟨0, _⟩ =>
    show win1_11.index ⟨(i 0).val / 8000, hlt⟩ (0 : Fin 2) * 8000 ≤ (i 0).val
      ∧ (i 0).val < win1_11.index ⟨(i 0).val / 8000, hlt⟩ (0 : Fin 2) * 8000 + 8000
    rw [eb0]; show (i 0).val / 8000 * 8000 ≤ (i 0).val ∧ (i 0).val < (i 0).val / 8000 * 8000 + 8000; omega
  | ⟨1, _⟩ =>
    show win1_11.index ⟨(i 0).val / 8000, hlt⟩ (1 : Fin 2) * 64 ≤ (i 1).val
      ∧ (i 1).val < win1_11.index ⟨(i 0).val / 8000, hlt⟩ (1 : Fin 2) * 64 + 64
    rw [eb1]; omega

/-- THE ARRAY after the region: the two perceptrons of the arrays the region finds. -/
theorem edge_final (c : Dev nD) :
    (dat1 V c).arrAt 11 cfg1.N
      = edge (E := 1200000) (V c main_v9) (V c main_v16) (V c main_arg3) (V c main_arg8) (V c main_v17) (V c main_arg10) (V c main_v18)
          (V c main_arg12) (V c main_v19) (V c main_arg14) (V c main_v20) :=
  (dat1 V c).arrAt_eq_of_cover 11 _ (fun t _ => flushed_eq V c t) cover

end Cert.KernelIdeal.EdgeValue

end
-- ==== Proof.KernelChain.lean ====
/-
  The kernel program's result buffer after the run, as one function of the launch memory.

  The buffer contents at the six segment boundaries are a fold from the launch memory: three stretches of host
  operations and two regions. Walking the result buffer back through the fold: the last stretch scatters the edge
  region's output array at the first index argument; the edge region's output is the two edge perceptrons of its row
  operands; two of those are the gathers, at the two index arguments with negative indices wrapped, of the node region's
  output array, which is the node perceptron of the node features; every bias row a region reads is the host's 1 × 64
  reshape of a 64-vector argument; and no argument buffer is ever written, so each holds the launch memory's contents
  at every boundary. Put together this is Cert.Model.result of the launch contents.
-/
import proofs.«119212_j12532714569875_2_alg».proof.Proof.Gen.KernelIdeal.Frame
import proofs.«119212_j12532714569875_2_alg».proof.Proof.LibTanhMlp
import proofs.«119212_j12532714569875_2_alg».proof.Proof.Model
import proofs.«119212_j12532714569875_2_alg».proof.Proof.NodeRegion
import proofs.«119212_j12532714569875_2_alg».proof.Proof.EdgeRegion
import Idealize.ShloMosaic.Lib.StableHlo.Run

noncomputable section

namespace Cert.KernelIdeal.Chain

open Idealize.ShloMosaic Idealize.ShloMosaic.TcCoe Idealize.SL.Sem
open Cert.KernelIdeal Cert.KernelIdeal.Gen Cert.LibTanhMlp Cert.Model

/-! ## The host operations around the regions, as functions of their operands -/

/-- An index array with its negative entries wrapped once around the 100000 node rows. -/
def normIdx (a : IVec S1200000 32) : IVec S1200000 32 :=
  select (cmpi .slt a (broadcastInDim S1200000 ![] bcast_S_S1200000 (constantI S_ 32 0#32)))
    (addi a (broadcastInDim S1200000 ![] bcast_S_S1200000 (constantI S_ 32 100000#32))) a

/-- The rows of a node array at the wrapped indices: one row per edge. -/
def gatherAt (a : IVec S1200000 32) (x : (⟨2, ![100000, 64]⟩ : Shape).Idx → EReal) : (⟨2, ![1200000, 64]⟩ : Shape).Idx → EReal :=
  Host.gather gather_S100000x64_S1200000x1_S1200000x64_1_0_n_n_0_1_164 x
    (broadcastInDim S1200000x1 ![0] bcast_S1200000_S1200000x1_0 (normIdx a))

/-- The edge rows summed into a zero node array at the given indices. -/
def scatterAt (a : IVec S1200000 32) (u : (⟨2, ![1200000, 64]⟩ : Shape).Idx → EReal) : (⟨2, ![100000, 64]⟩ : Shape).Idx → EReal :=
  Host.scatterAdd (F := Ideal) (φ := .f32) scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 a) u

/-- A 64-vector as a 1 × 64 row. -/
def row (b : (⟨1, ![64]⟩ : Shape).Idx → EReal) : (⟨2, ![1, 64]⟩ : Shape).Idx → EReal :=
  shapeCast S1x64 b shapeCasts_S64_S1x64

variable (m : (ℓ : Loc nD τ sig) → Buf (Elt Ideal) ℓ) (ρ : Dev nD → PrngReg)

/-! ## Congruences, over variables of the literal array types -/

theorem mlp_args {M K H N : ℕ} {X X' : (⟨2, ![M, K]⟩ : Shape).Idx → EReal} {W1 W1' : (⟨2, ![K, H]⟩ : Shape).Idx → EReal}
    {B1 B1' : (⟨2, ![1, H]⟩ : Shape).Idx → EReal} {W2 W2' : (⟨2, ![H, N]⟩ : Shape).Idx → EReal}
    {B2 B2' : (⟨2, ![1, N]⟩ : Shape).Idx → EReal}
    (hX : X = X') (hW1 : W1 = W1') (hB1 : B1 = B1') (hW2 : W2 = W2') (hB2 : B2 = B2') :
    mlp X W1 B1 W2 B2 = mlp X' W1' B1' W2' B2' := by
  subst hX hW1 hB1 hW2 hB2; rfl

theorem edge_args {E : ℕ} {gi gi' gj gj' ba ba' : (⟨2, ![E, 64]⟩ : Shape).Idx → EReal}
    {w1 w1' w2 w2' w3 w3' w4 w4' : (⟨2, ![64, 64]⟩ : Shape).Idx → EReal}
    {b1 b1' b2 b2' b3 b3' b4 b4' : (⟨2, ![1, 64]⟩ : Shape).Idx → EReal}
    (hgi : gi = gi') (hgj : gj = gj') (hba : ba = ba') (hw1 : w1 = w1') (hb1 : b1 = b1') (hw2 : w2 = w2') (hb2 : b2 = b2')
    (hw3 : w3 = w3') (hb3 : b3 = b3') (hw4 : w4 = w4') (hb4 : b4 = b4') :
    edge gi gj ba w1 b1 w2 b2 w3 b3 w4 b4 = edge gi' gj' ba' w1' b1' w2' b2' w3' b3' w4' b4' := by
  subst hgi hgj hba hw1 hb1 hw2 hb2 hw3 hb3 hw4 hb4; rfl

theorem gatherAt_args {a a' : IVec S1200000 32} {x x' : (⟨2, ![100000, 64]⟩ : Shape).Idx → EReal} (ha : a = a') (hx : x = x') :
    gatherAt a x = gatherAt a' x' := by subst ha hx; rfl

theorem scatterAt_args {a a' : IVec S1200000 32} {u u' : (⟨2, ![1200000, 64]⟩ : Shape).Idx → EReal} (ha : a = a') (hu : u = u') :
    scatterAt a u = scatterAt a' u' := by subst ha hu; rfl

theorem row_arg {b b' : (⟨1, ![64]⟩ : Shape).Idx → EReal} (hb : b = b') : row b = row b' := by subst hb; rfl

/-! ## After the first stretch: the node region's entry -/

/-- The first stretch writes the two reshaped bias rows only. -/
theorem W1_keep (c : Dev nD) (b : Ref sig .tc) (h0 : b ≠ main_v0) (h1 : b ≠ main_v1) :
    Gen.W1 m ρ c (Proc.devRef .tc b) = m ((c.tc : Thread nD τ).loc b) := by
  refine (StableHlo.after_of_forall_not_mem (b := Proc.devRef .tc b) _ _ (List.forall_iff_forall_mem.mp ?_)).trans rfl
  simp only [hostOps0, List.Forall, StableHlo.reshape_writes, Finset.mem_singleton]
  exact ⟨StableHlo.devRef_ne_of_ne h0, StableHlo.devRef_ne_of_ne h1⟩

theorem W1_v0 (c : Dev nD) : Gen.W1 m ρ c (Proc.devRef .tc main_v0) = row (m ((c.tc : Thread nD τ).loc main_arg5)) := by
  show StableHlo.after hostOps0 _ (Proc.devRef .tc main_v0) = _
  after_results
  rfl

theorem W1_v1 (c : Dev nD) : Gen.W1 m ρ c (Proc.devRef .tc main_v1) = row (m ((c.tc : Thread nD τ).loc main_arg7)) := by
  show StableHlo.after hostOps0 _ (Proc.devRef .tc main_v1) = _
  after_results
  rfl

/-! ## After the node region -/

/-- A buffer that is no array of the node region and is not written by the first stretch holds the launch contents. -/
theorem W2_keep (c : Dev nD) (b : Ref sig .tc) (hw : ∀ w, Pipeline.arrRef spec0 w ≠ b) (h0 : b ≠ main_v0) (h1 : b ≠ main_v1) :
    Gen.W2 m ρ c (Proc.devRef .tc b) = m ((c.tc : Thread nD τ).loc b) :=
  (W2_of_ne m ρ c b hw).trans (W1_keep m ρ c b h0 h1)

/-- The node region's output array: the node perceptron of the launch contents. -/
theorem W2_v2 (c : Dev nD) : Gen.W2 m ρ c (Proc.devRef .tc main_v2)
    = mlp (M := 100000) (K := 64) (H := 64) (N := 64) (m ((c.tc : Thread nD τ).loc main_arg2)) (m ((c.tc : Thread nD τ).loc main_arg4))
        (row (m ((c.tc : Thread nD τ).loc main_arg5))) (m ((c.tc : Thread nD τ).loc main_arg6)) (row (m ((c.tc : Thread nD τ).loc main_arg7))) :=
  (W2_arr m ρ c 5).trans ((Cert.KernelIdeal.NodeValue.node_final (V1 m ρ) c).trans
    (mlp_args (W1_keep m ρ c main_arg2 (by decide) (by decide)) (W1_keep m ρ c main_arg4 (by decide) (by decide)) (W1_v0 m ρ c)
      (W1_keep m ρ c main_arg6 (by decide) (by decide)) (W1_v1 m ρ c)))

/-! ## After the second stretch: the edge region's entry -/

/-- The buffers the second stretch writes: its two index computations, the two gathers and four reshaped bias rows. -/
def written1 : List (Ref sig .tc) :=
  [main_c, main_v3, main_v4, main_c_0, main_v5, main_v6, main_v7, main_v8, main_v9, main_c_1, main_v10, main_v11, main_c_2,
    main_v12, main_v13, main_v14, main_v15, main_v16, main_v17, main_v18, main_v19, main_v20]

theorem hostOps1_writes :
    (hostOps1 (F := Ideal)).Forall fun op => op.writes ⊆ (written1.map (Proc.devRef (τ := τ) .tc)).toFinset := by
  simp only [hostOps1, written1, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

/-- A buffer the second stretch does not write, that is no array of the node region and is not written by the first
    stretch, holds the launch contents. -/
theorem W3_keep (c : Dev nD) (b : Ref sig .tc) (hb : b ∉ written1) (hw : ∀ w, Pipeline.arrRef spec0 w ≠ b)
    (h0 : b ≠ main_v0) (h1 : b ≠ main_v1) : Gen.W3 m ρ c (Proc.devRef .tc b) = m ((c.tc : Thread nD τ).loc b) :=
  (StableHlo.after_of_writes_sub (W := written1) hostOps1 (Gen.W2 m ρ c) hostOps1_writes hb).trans (W2_keep m ρ c b hw h0 h1)

/-- The node region's output array as a function of the launch contents. -/
def nodeOut (c : Dev nD) : (⟨2, ![100000, 64]⟩ : Shape).Idx → EReal :=
  mlp (M := 100000) (K := 64) (H := 64) (N := 64) (m ((c.tc : Thread nD τ).loc main_arg2)) (m ((c.tc : Thread nD τ).loc main_arg4)) (row (m ((c.tc : Thread nD τ).loc main_arg5))) (m ((c.tc : Thread nD τ).loc main_arg6)) (row (m ((c.tc : Thread nD τ).loc main_arg7)))

theorem W3_v9 (c : Dev nD) : Gen.W3 m ρ c (Proc.devRef .tc main_v9) = gatherAt (m ((c.tc : Thread nD τ).loc main_arg0)) (nodeOut m c) := by
  refine Eq.trans (b := gatherAt (Gen.W2 m ρ c (Proc.devRef .tc main_arg0)) (Gen.W2 m ρ c (Proc.devRef .tc main_v2))) ?_
    (gatherAt_args (W2_keep m ρ c main_arg0 (by decide) (by decide) (by decide)) (W2_v2 m ρ c))
  show StableHlo.after hostOps1 _ (Proc.devRef .tc main_v9) = _
  after_results
  rfl

theorem W3_v16 (c : Dev nD) : Gen.W3 m ρ c (Proc.devRef .tc main_v16) = gatherAt (m ((c.tc : Thread nD τ).loc main_arg1)) (nodeOut m c) := by
  refine Eq.trans (b := gatherAt (Gen.W2 m ρ c (Proc.devRef .tc main_arg1)) (Gen.W2 m ρ c (Proc.devRef .tc main_v2))) ?_
    (gatherAt_args (W2_keep m ρ c main_arg1 (by decide) (by decide) (by decide)) (W2_v2 m ρ c))
  show StableHlo.after hostOps1 _ (Proc.devRef .tc main_v16) = _
  after_results
  rfl

theorem W3_v17 (c : Dev nD) : Gen.W3 m ρ c (Proc.devRef .tc main_v17) = row (m ((c.tc : Thread nD τ).loc main_arg9)) := by
  refine Eq.trans (b := row (Gen.W2 m ρ c (Proc.devRef .tc main_arg9))) ?_
    (row_arg (W2_keep m ρ c main_arg9 (by decide) (by decide) (by decide)))
  show StableHlo.after hostOps1 _ (Proc.devRef .tc main_v17) = _
  after_results
  rfl

theorem W3_v18 (c : Dev nD) : Gen.W3 m ρ c (Proc.devRef .tc main_v18) = row (m ((c.tc : Thread nD τ).loc main_arg11)) := by
  refine Eq.trans (b := row (Gen.W2 m ρ c (Proc.devRef .tc main_arg11))) ?_
    (row_arg (W2_keep m ρ c main_arg11 (by decide) (by decide) (by decide)))
  show StableHlo.after hostOps1 _ (Proc.devRef .tc main_v18) = _
  after_results
  rfl

theorem W3_v19 (c : Dev nD) : Gen.W3 m ρ c (Proc.devRef .tc main_v19) = row (m ((c.tc : Thread nD τ).loc main_arg13)) := by
  refine Eq.trans (b := row (Gen.W2 m ρ c (Proc.devRef .tc main_arg13))) ?_
    (row_arg (W2_keep m ρ c main_arg13 (by decide) (by decide) (by decide)))
  show StableHlo.after hostOps1 _ (Proc.devRef .tc main_v19) = _
  after_results
  rfl

theorem W3_v20 (c : Dev nD) : Gen.W3 m ρ c (Proc.devRef .tc main_v20) = row (m ((c.tc : Thread nD τ).loc main_arg15)) := by
  refine Eq.trans (b := row (Gen.W2 m ρ c (Proc.devRef .tc main_arg15))) ?_
    (row_arg (W2_keep m ρ c main_arg15 (by decide) (by decide) (by decide)))
  show StableHlo.after hostOps1 _ (Proc.devRef .tc main_v20) = _
  after_results
  rfl

/-! ## After the edge region -/

/-- The edge region's output array as a function of the launch contents. -/
def edgeOut (c : Dev nD) : (⟨2, ![1200000, 64]⟩ : Shape).Idx → EReal :=
  edge (E := 1200000) (gatherAt (m ((c.tc : Thread nD τ).loc main_arg0)) (nodeOut m c)) (gatherAt (m ((c.tc : Thread nD τ).loc main_arg1)) (nodeOut m c)) (m ((c.tc : Thread nD τ).loc main_arg3))
    (m ((c.tc : Thread nD τ).loc main_arg8)) (row (m ((c.tc : Thread nD τ).loc main_arg9))) (m ((c.tc : Thread nD τ).loc main_arg10)) (row (m ((c.tc : Thread nD τ).loc main_arg11)))
    (m ((c.tc : Thread nD τ).loc main_arg12)) (row (m ((c.tc : Thread nD τ).loc main_arg13))) (m ((c.tc : Thread nD τ).loc main_arg14)) (row (m ((c.tc : Thread nD τ).loc main_arg15)))

theorem W4_v21 (c : Dev nD) : Gen.W4 m ρ c (Proc.devRef .tc main_v21) = edgeOut m c :=
  (W4_arr m ρ c 11).trans ((Cert.KernelIdeal.EdgeValue.edge_final (V3 m ρ) c).trans
    (edge_args (W3_v9 m ρ c) (W3_v16 m ρ c)
      (W3_keep m ρ c main_arg3 (by decide) (by decide) (by decide) (by decide))
      (W3_keep m ρ c main_arg8 (by decide) (by decide) (by decide) (by decide)) (W3_v17 m ρ c)
      (W3_keep m ρ c main_arg10 (by decide) (by decide) (by decide) (by decide)) (W3_v18 m ρ c)
      (W3_keep m ρ c main_arg12 (by decide) (by decide) (by decide) (by decide)) (W3_v19 m ρ c)
      (W3_keep m ρ c main_arg14 (by decide) (by decide) (by decide) (by decide)) (W3_v20 m ρ c)))

/-- The first index argument is no array of the edge region. -/
theorem W4_arg0 (c : Dev nD) : Gen.W4 m ρ c (Proc.devRef .tc main_arg0) = m ((c.tc : Thread nD τ).loc main_arg0) :=
  (W4_of_ne m ρ c main_arg0 (by decide)).trans (W3_keep m ρ c main_arg0 (by decide) (by decide) (by decide) (by decide))

/-! ## After the last stretch: the result -/

/-- THE RESULT BUFFER after the run: the scatter, at the first index argument, of the two edge perceptrons of the
    gathered node perceptron — Cert.Model.result of the launch contents. -/
theorem W5_result (c : Dev nD) : Gen.W5 (F := Ideal) m ρ c (Proc.devRef .tc main_v24)
    = Cert.Model.result (gatherAt (m ((c.tc : Thread nD τ).loc main_arg0))) (gatherAt (m ((c.tc : Thread nD τ).loc main_arg1))) (scatterAt (m ((c.tc : Thread nD τ).loc main_arg0)))
        (m ((c.tc : Thread nD τ).loc main_arg2)) (m ((c.tc : Thread nD τ).loc main_arg3))
        (m ((c.tc : Thread nD τ).loc main_arg4)) (row (m ((c.tc : Thread nD τ).loc main_arg5))) (m ((c.tc : Thread nD τ).loc main_arg6)) (row (m ((c.tc : Thread nD τ).loc main_arg7)))
        (m ((c.tc : Thread nD τ).loc main_arg8)) (row (m ((c.tc : Thread nD τ).loc main_arg9))) (m ((c.tc : Thread nD τ).loc main_arg10)) (row (m ((c.tc : Thread nD τ).loc main_arg11)))
        (m ((c.tc : Thread nD τ).loc main_arg12)) (row (m ((c.tc : Thread nD τ).loc main_arg13))) (m ((c.tc : Thread nD τ).loc main_arg14)) (row (m ((c.tc : Thread nD τ).loc main_arg15))) := by
  refine Eq.trans (b := scatterAt (Gen.W4 m ρ c (Proc.devRef .tc main_arg0)) (Gen.W4 m ρ c (Proc.devRef .tc main_v21))) ?_
    ((scatterAt_args (W4_arg0 m ρ c) (W4_v21 m ρ c)).trans rfl)
  show StableHlo.after hostOps2 _ (Proc.devRef .tc main_v24) = _
  after_results
  rfl

end Cert.KernelIdeal.Chain

end
-- ==== Proof.RefModel.lean ====
/-
  The reference's result, as the one function of its inputs that the model names.

  The reference computes, in plain host operations, a perceptron over the node features, gathers its rows at both
  endpoints of every edge (a negative index first moved up by the number of nodes), sums each pair with the edge's basis
  row, sends the sums through two more perceptrons, and scatter-adds the edge rows onto the nodes. Each perceptron is the
  host's way of a two-layer tanh perceptron (a dot_general, a bias row repeated along the rows, add, tanh, and the same
  again), so the composed term of the reference's run is the model's result with the reference's own gathers and
  scatter as its parameters; these are never opened. A bias vector enters a perceptron as the one row of a 1 × 64
  matrix: placing it there by a broadcast or by a shape cast gives the same row.
-/
import proofs.«119212_j12532714569875_2_alg».proof.Proof.Gen.ReferenceIdeal.Run
import proofs.«119212_j12532714569875_2_alg».proof.Proof.LibTanhMlp
import proofs.«119212_j12532714569875_2_alg».proof.Proof.LibPlainDot
import proofs.«119212_j12532714569875_2_alg».proof.Proof.Model

noncomputable section

namespace Cert.ReferenceIdeal.RefValue

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.Value Cert.LibHostRead Cert.LibPlainDot Cert.LibTanhMlp

/-- A vector placed as the one row of a 1 × b matrix by a broadcast is the vector re-cast to 1 × b. -/
theorem row_eq_shapeCast {b : ℕ} (x : (⟨1, ![b]⟩ : Shape).Idx → EReal)
    (h : (⟨1, ![b]⟩ : Shape).BroadcastsInDim ⟨2, ![1, b]⟩ ![1]) (hs : (⟨1, ![b]⟩ : Shape).ShapeCasts ⟨2, ![1, b]⟩) :
    broadcastInDim ⟨2, ![1, b]⟩ ![1] h x = shapeCast ⟨2, ![1, b]⟩ x hs := by
  funext i
  obtain ⟨u, c, rfl⟩ : ∃ (u : Fin 1) (c : Fin b), i = ix2 u c := ⟨i 0, i 1, eq_ix2 i⟩
  rw [bid_b_1b_apply, shapeCast_a_1a_apply]

/-- An index array with every negative entry moved up by the number of nodes. -/
def normIdx (a : IVec S1200000 32) : IVec S1200000 32 :=
  select (cmpi .slt a (broadcastInDim S1200000 ![] bcast_S_S1200000 (constantI S_ 32 0#32)))
    (addi a (broadcastInDim S1200000 ![] bcast_S_S1200000 (constantI S_ 32 100000#32))) a

/-- The rows of a node array at the (normalised) indices a, one per edge. -/
def gatherAt (a : IVec S1200000 32) (x : FVec Ideal S100000x64 .f32) : FVec Ideal S1200000x64 .f32 :=
  Host.gather gather_S100000x64_S1200000x1_S1200000x64_1_0_n_n_0_1_164 x
    (broadcastInDim S1200000x1 ![0] bcast_S1200000_S1200000x1_0 (normIdx a))

/-- The edge rows added onto the zero node array at the indices a. -/
def scatterAt (a : IVec S1200000 32) (u : FVec Ideal S1200000x64 .f32) : FVec Ideal S100000x64 .f32 :=
  Host.scatterAdd (F := Ideal) scatter_S100000x64_S1200000x1_S1200000x64_1_0_0_1
    (broadcastInDim S100000x64 ![] bcast_S_S100000x64 (constant S_ .f32 0x00000000#32))
    (broadcastInDim S1200000x1 ![0] bcast_S1200000_S1200000x1_0 a) u

/-- A bias vector as the one row of a 1 × 64 matrix. -/
def row (b : FVec Ideal S64 .f32) : FVec Ideal S1x64 .f32 := broadcastInDim S1x64 ![1] bcast_S64_S1x64_1 b

/-- The node perceptron's matrix product is rows times columns. -/
theorem plainN : PlainDot dot_S100000x64_S64x64_S100000x64_1_0_0_1_n_n where
  hr := rfl
  hs := rfl
  hl0 := fun _ _ => rfl
  hl1 := fun _ _ => rfl
  hr0 := fun _ _ => rfl
  hr1 := fun _ _ => rfl

/-- The edge perceptrons' matrix product is rows times columns. -/
theorem plainE : PlainDot dot_S1200000x64_S64x64_S1200000x64_1_0_0_1_n_n where
  hr := rfl
  hs := rfl
  hl0 := fun _ _ => rfl
  hl1 := fun _ _ => rfl
  hr0 := fun _ _ => rfl
  hr1 := fun _ _ => rfl

/-- The reference's composed term is the model's result, with the reference's gathers and scatter as the parameters:
    the node perceptron, then the two edge perceptrons from the inside out, are each the host's way of a perceptron. -/
theorem result_eq (a0 a1 : IVec S1200000 32) (p1 : FVec Ideal S100000x64 .f32) (basis : FVec Ideal S1200000x64 .f32)
    (w1 w2 w3 w4 w5 w6 : FVec Ideal S64x64 .f32) (b1 b2 b3 b4 b5 b6 : FVec Ideal S64 .f32) :
    Host.scatterAdd (F := Ideal) scatter_S100000x64_S1200000x1_S1200000x64_1_0_0_1
        (broadcastInDim S100000x64 ![] bcast_S_S100000x64 (constant S_ .f32 0x00000000#32))
        (broadcastInDim S1200000x1 ![0] bcast_S1200000_S1200000x1_0 a0)
        (addf (Host.dotGeneral dot_S1200000x64_S64x64_S1200000x64_1_0_0_1_n_n none (Host.tanh (addf (Host.dotGeneral dot_S1200000x64_S64x64_S1200000x64_1_0_0_1_n_n none
          (addf (Host.dotGeneral dot_S1200000x64_S64x64_S1200000x64_1_0_0_1_n_n none (Host.tanh (addf (Host.dotGeneral dot_S1200000x64_S64x64_S1200000x64_1_0_0_1_n_n none
            (addf (addf
              (Host.gather gather_S100000x64_S1200000x1_S1200000x64_1_0_n_n_0_1_164
                (addf (Host.dotGeneral dot_S100000x64_S64x64_S100000x64_1_0_0_1_n_n none
                    (Host.tanh (addf (Host.dotGeneral dot_S100000x64_S64x64_S100000x64_1_0_0_1_n_n none p1 w1)
                      (broadcastInDim S100000x64 ![0, 1] bcast_S1x64_S100000x64_0_1 (broadcastInDim S1x64 ![1] bcast_S64_S1x64_1 b1)))) w2)
                  (broadcastInDim S100000x64 ![0, 1] bcast_S1x64_S100000x64_0_1 (broadcastInDim S1x64 ![1] bcast_S64_S1x64_1 b2)))
                (broadcastInDim S1200000x1 ![0] bcast_S1200000_S1200000x1_0
                  (select (cmpi .slt a0 (broadcastInDim S1200000 ![] bcast_S_S1200000 (constantI S_ 32 0#32)))
                    (addi a0 (broadcastInDim S1200000 ![] bcast_S_S1200000 (constantI S_ 32 100000#32))) a0)))
              basis)
              (Host.gather gather_S100000x64_S1200000x1_S1200000x64_1_0_n_n_0_1_164
                (addf (Host.dotGeneral dot_S100000x64_S64x64_S100000x64_1_0_0_1_n_n none
                    (Host.tanh (addf (Host.dotGeneral dot_S100000x64_S64x64_S100000x64_1_0_0_1_n_n none p1 w1)
                      (broadcastInDim S100000x64 ![0, 1] bcast_S1x64_S100000x64_0_1 (broadcastInDim S1x64 ![1] bcast_S64_S1x64_1 b1)))) w2)
                  (broadcastInDim S100000x64 ![0, 1] bcast_S1x64_S100000x64_0_1 (broadcastInDim S1x64 ![1] bcast_S64_S1x64_1 b2)))
                (broadcastInDim S1200000x1 ![0] bcast_S1200000_S1200000x1_0
                  (select (cmpi .slt a1 (broadcastInDim S1200000 ![] bcast_S_S1200000 (constantI S_ 32 0#32)))
                    (addi a1 (broadcastInDim S1200000 ![] bcast_S_S1200000 (constantI S_ 32 100000#32))) a1))))
            w3) (broadcastInDim S1200000x64 ![0, 1] bcast_S1x64_S1200000x64_0_1 (broadcastInDim S1x64 ![1] bcast_S64_S1x64_1 b3))))
            w4) (broadcastInDim S1200000x64 ![0, 1] bcast_S1x64_S1200000x64_0_1 (broadcastInDim S1x64 ![1] bcast_S64_S1x64_1 b4)))
          w5) (broadcastInDim S1200000x64 ![0, 1] bcast_S1x64_S1200000x64_0_1 (broadcastInDim S1x64 ![1] bcast_S64_S1x64_1 b5))))
          w6) (broadcastInDim S1200000x64 ![0, 1] bcast_S1x64_S1200000x64_0_1 (broadcastInDim S1x64 ![1] bcast_S64_S1x64_1 b6)))
    = Cert.Model.result (gatherAt a0) (gatherAt a1) (scatterAt a0) p1 basis w1 (row b1) w2 (row b2) w3 (row b3) w4 (row b4)
        w5 (row b5) w6 (row b6) := by
  have eN := host_mlp_eq _ plainN _ plainN bcast_S1x64_S100000x64_0_1 bcast_S1x64_S100000x64_0_1 p1 w1 (row b1) w2 (row b2)
  have e1 := host_mlp_eq _ plainE _ plainE bcast_S1x64_S1200000x64_0_1 bcast_S1x64_S1200000x64_0_1
    (addf (addf (gatherAt a0 (mlp p1 w1 (row b1) w2 (row b2))) basis) (gatherAt a1 (mlp p1 w1 (row b1) w2 (row b2)))) w3 (row b3) w4 (row b4)
  have e2 := host_mlp_eq _ plainE _ plainE bcast_S1x64_S1200000x64_0_1 bcast_S1x64_S1200000x64_0_1
    (mlp (addf (addf (gatherAt a0 (mlp p1 w1 (row b1) w2 (row b2))) basis) (gatherAt a1 (mlp p1 w1 (row b1) w2 (row b2))) : FVec Ideal S1200000x64 .f32)
      w3 (row b3) w4 (row b4)) w5 (row b5) w6 (row b6)
  conv at e1 => lhs; rw [← eN]
  conv at e2 => lhs; rw [← e1]
  unfold Cert.Model.result Cert.Model.edge
  exact congrArg (scatterAt a0) e2

/-- On every device, from any memory with zero counters: every weakly fair execution of the reference terminates with its
    result at the model's result of the argument arrays — the reference's gathers at the two index arrays, its scatter at
    the first — and the arguments unchanged. -/
theorem run_model (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45)
        = Cert.Model.result (gatherAt (m ((c.tc : Thread nD τ).loc main_arg0))) (gatherAt (m ((c.tc : Thread nD τ).loc main_arg1)))
            (scatterAt (m ((c.tc : Thread nD τ).loc main_arg0)))
            (m ((c.tc : Thread nD τ).loc main_arg2)) (m ((c.tc : Thread nD τ).loc main_arg3))
            (m ((c.tc : Thread nD τ).loc main_arg4)) (row (m ((c.tc : Thread nD τ).loc main_arg5)))
            (m ((c.tc : Thread nD τ).loc main_arg6)) (row (m ((c.tc : Thread nD τ).loc main_arg7)))
            (m ((c.tc : Thread nD τ).loc main_arg8)) (row (m ((c.tc : Thread nD τ).loc main_arg9)))
            (m ((c.tc : Thread nD τ).loc main_arg10)) (row (m ((c.tc : Thread nD τ).loc main_arg11)))
            (m ((c.tc : Thread nD τ).loc main_arg12)) (row (m ((c.tc : Thread nD τ).loc main_arg13)))
            (m ((c.tc : Thread nD τ).loc main_arg14)) (row (m ((c.tc : Thread nD τ).loc main_arg15)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c).1.trans (result_eq _ _ _ _ _ _ _ _ _ _ _ _ _ _ _ _), (h c).2⟩)
    (run (F := Ideal) m ρ)

end Cert.ReferenceIdeal.RefValue

end
-- ==== Proof.lean ====
/-
  The certificate of the graph-convolution block: a perceptron over 100000 node rows, the rows gathered at both
  endpoints of 1200000 edges and summed with each edge's basis row, two perceptrons over the edge rows, and the edge
  rows scatter-added back onto the nodes — the kernel program against its plain reference, on the extended reals.

  The kernel program computes the node perceptron in ten blocks of 10000 rows and the two edge perceptrons in 150 blocks
  of 8000 rows, each on the vector unit (operands narrowed to bf16, which is the identity on extended reals, and a matrix
  product into a zero accumulator); the reference computes each perceptron as whole-array host operations. An entry of
  a perceptron reads one row of its first operand, so a block of rows of the whole-array perceptron is the perceptron of
  that block of rows, and the blocks tile the arrays: both programs end at Cert.Model.result, the same function of the
  inputs (NodeRegion, EdgeRegion and KernelChain for the kernel program, RefModel for the reference). The gathers (with
  a negative index first moved up by the number of nodes) and the scatter are the same host operations in both programs
  and are never opened; a bias vector enters a perceptron as the one row of a 1 × 64 matrix, placed there by a shape
  cast in the kernel program and by a broadcast in the reference, which give the same row. No law of arithmetic is
  used beyond reading each operation at an index, so the inputs' finiteness is never needed.
  The three frames are the generated ones (the reference's is its generated run with the result dropped), and the
  idealization rewrote no operation, so the kernel program's idealization is its own text read on the extended reals.
-/
import proofs.«119212_j12532714569875_2_alg».proof.Defs
import proofs.«119212_j12532714569875_2_alg».proof.Proof.Gen.Kernel
import proofs.«119212_j12532714569875_2_alg».proof.Proof.Gen.Kernel.Skeleton
import proofs.«119212_j12532714569875_2_alg».proof.Proof.Gen.Kernel.Launch
import proofs.«119212_j12532714569875_2_alg».proof.Proof.Gen.Kernel.Points
import proofs.«119212_j12532714569875_2_alg».proof.Proof.Gen.Kernel.Frame
import proofs.«119212_j12532714569875_2_alg».proof.Proof.Gen.KernelIdeal
import proofs.«119212_j12532714569875_2_alg».proof.Proof.Gen.KernelIdeal.Skeleton
import proofs.«119212_j12532714569875_2_alg».proof.Proof.Gen.KernelIdeal.Launch
import proofs.«119212_j12532714569875_2_alg».proof.Proof.Gen.KernelIdeal.Points
import proofs.«119212_j12532714569875_2_alg».proof.Proof.Gen.KernelIdeal.Frame
import proofs.«119212_j12532714569875_2_alg».proof.Proof.Gen.ReferenceIdeal
import proofs.«119212_j12532714569875_2_alg».proof.Proof.Gen.Pre_finite_inputs
import proofs.«119212_j12532714569875_2_alg».proof.Proof.Gen.ReferenceIdeal.Run
import proofs.«119212_j12532714569875_2_alg».proof.Proof.Gen.ReferenceIdeal.Read
import proofs.«119212_j12532714569875_2_alg».proof.Proof.KernelRun
import proofs.«119212_j12532714569875_2_alg».proof.Proof.KernelChain
import proofs.«119212_j12532714569875_2_alg».proof.Proof.RefModel
import Idealize.ShloMosaic.Adequacy
import Idealize.ShloMosaic.Init

noncomputable section

namespace Cert.Proof

open Idealize.ShloMosaic Idealize.ShloMosaic.TcCoe Idealize.SL.Sem

/-- The two programs' gathers, scatter and bias rows are the same functions: the gathers and the scatter are the same
    host operations with the same dimension numbers, and a bias vector placed as the one row of a 1 × 64 matrix by a
    broadcast is the vector re-cast to 1 × 64. So the reference's result and the kernel program's are one function of
    the inputs. -/
theorem result_agree (a0 a1 : IVec Cert.ReferenceIdeal.S1200000 32) (p1 : FVec Ideal Cert.ReferenceIdeal.S100000x64 .f32)
    (basis : FVec Ideal Cert.ReferenceIdeal.S1200000x64 .f32)
    (w1 w2 w3 w4 w5 w6 : FVec Ideal Cert.ReferenceIdeal.S64x64 .f32) (b1 b2 b3 b4 b5 b6 : FVec Ideal Cert.ReferenceIdeal.S64 .f32) :
    Cert.Model.result (Cert.ReferenceIdeal.RefValue.gatherAt a0) (Cert.ReferenceIdeal.RefValue.gatherAt a1)
        (Cert.ReferenceIdeal.RefValue.scatterAt a0) p1 basis
        w1 (Cert.ReferenceIdeal.RefValue.row b1) w2 (Cert.ReferenceIdeal.RefValue.row b2)
        w3 (Cert.ReferenceIdeal.RefValue.row b3) w4 (Cert.ReferenceIdeal.RefValue.row b4)
        w5 (Cert.ReferenceIdeal.RefValue.row b5) w6 (Cert.ReferenceIdeal.RefValue.row b6)
      = Cert.Model.result (Cert.KernelIdeal.Chain.gatherAt a0) (Cert.KernelIdeal.Chain.gatherAt a1)
        (Cert.KernelIdeal.Chain.scatterAt a0) p1 basis
        w1 (Cert.KernelIdeal.Chain.row b1) w2 (Cert.KernelIdeal.Chain.row b2)
        w3 (Cert.KernelIdeal.Chain.row b3) w4 (Cert.KernelIdeal.Chain.row b4)
        w5 (Cert.KernelIdeal.Chain.row b5) w6 (Cert.KernelIdeal.Chain.row b6) := by
  have hr : ∀ b : FVec Ideal Cert.ReferenceIdeal.S64 .f32, Cert.ReferenceIdeal.RefValue.row b = Cert.KernelIdeal.Chain.row b :=
    fun b => Cert.ReferenceIdeal.RefValue.row_eq_shapeCast b _ _
  rw [hr b1, hr b2, hr b3, hr b4, hr b5, hr b6]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel program ends with its result at the last boundary's contents, which is the model's result of the launch
    memory; the reference ends at the model's result of its own memory; the memories agree on the inputs. -/
theorem algebraic : Cert.algebraic_KernelIdeal_ReferenceIdeal := by
  intro m ρ m' ρ' _ hagree
  refine ⟨fun c => Cert.KernelIdeal.Gen.W5 (F := Ideal) m ρ c (Proc.devRef .tc Cert.KernelIdeal.main_v24),
    Cert.KernelIdeal.RunValue.run_value (F := Ideal) m ρ, ?_⟩
  refine (θ_run Cert.ReferenceIdeal.defs _ _).mono (fun _ h c => ⟨(h c).1.trans ?_, (h c).2⟩)
    (Cert.ReferenceIdeal.RefValue.run_model m' ρ')
  obtain ⟨h0, h1, h2, h3, h4, h5, h6, h7, h8, h9, h10, h11, h12, h13, h14, h15⟩ := hagree c
  rw [h0, h1, h2, h3, h4, h5, h6, h7, h8, h9, h10, h11, h12, h13, h14, h15]
  exact (result_agree _ _ _ _ _ _ _ _ _ _ _ _ _ _ _ _).trans (Cert.KernelIdeal.Chain.W5_result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
